-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S8192x1024 .f32) (main_arg1 : FVec F S4096x1024 .f32) (main_arg2 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S8192x1024 : Shape := ⟨2, ![8192, 1024]⟩
abbrev S4096x1024 : Shape := ⟨2, ![4096, 1024]⟩
abbrev S_ : Shape := ⟨0, ![]⟩
abbrev S4096 : Shape := ⟨1, ![4096]⟩
abbrev S1x4096 : Shape := ⟨2, ![1, 4096]⟩
abbrev S8192x4096 : Shape := ⟨2, ![8192, 4096]⟩
abbrev S1024x1024 : Shape := ⟨2, ![1024, 1024]⟩
abbrev S512x1024 : Shape := ⟨2, ![512, 1024]⟩
abbrev S1x512 : Shape := ⟨2, ![1, 512]⟩
abbrev S1024x512 : Shape := ⟨2, ![1024, 512]⟩

abbrev nBuf : Space → Nat
  | .hbm => 19
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S1x4096, .f32⟩
  | .hbm, ⟨15, _⟩ => ⟨S8192x1024, .bf16⟩
  | .hbm, ⟨16, _⟩ => ⟨S8192x1024, .f32⟩
  | .hbm, ⟨17, _⟩ => ⟨S8192x1024, .bf16⟩
  | .hbm, ⟨18, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S4096x1024 : S_.BroadcastsInDim S4096x1024 (![] : Fin 0 → Fin S4096x1024.rank)
  bitsLt_bf16_f32 : FTy.bits .bf16 < FTy.bits .f32
  reducesTo_S4096x1024_S4096_d1 : S4096x1024.ReducesTo [1] S4096
  h_S_ : 0 < S_.numel
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x4096.size a
  hwx0_5 : ∀ i : grid0.Coords, EltTy.bits .f32 = 32 ∨ (Rect.block (s := S8192x4096) S1024x512.size (cc0_transform_5 i) (hinb0_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v10) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S_ : Shape := ⟨0, ![]⟩
abbrev S1024x4096 : Shape := ⟨2, ![1024, 4096]⟩
abbrev S8192x4096 : Shape := ⟨2, ![8192, 4096]⟩
abbrev S4096 : Shape := ⟨1, ![4096]⟩
abbrev S1x4096 : Shape := ⟨2, ![1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S8192x1024, .f32⟩
  | .hbm, ⟨8, _⟩ => ⟨S1024x4096, .f32⟩
  | .hbm, ⟨9, _⟩ => ⟨S8192x4096, .f32⟩
  | .hbm, ⟨10, _⟩ => ⟨S4096x1024, .f32⟩
  | .hbm, ⟨11, _⟩ => ⟨S1024x4096, .f32⟩
  | .hbm, ⟨12, _⟩ => ⟨S8192x4096, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  transposes_S4096x1024_S1024x4096_1_0 : S4096x1024.Transposes [1, 0] S1024x4096
  reducesTo_S4096x1024_S4096_d1 : S4096x1024.ReducesTo [1] S4096
  h_S_ : 0 < S_.numel
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LibMatmulRowsByRows.lean ====
/-
  A matrix product "rows by rows", read at an entry.

  The product of an [m, k] matrix A with an [n, k] matrix B that contracts the SECOND axis of both (A · Bᵀ), accumulated
  into the zero matrix, has at entry (a, b) the sum over the k contracted positions c of A(a, c) · B(b, c). At the
  ideal values the product is the exact sum, so nothing of a chunking or an order of accumulation is left in it.
-/
import Idealize.ShloMosaic.PureOps.Ideal.Laws
import Idealize.ShloMosaic.Lib.ValueIdx

noncomputable section

namespace Idealize.ShloMosaic.ValueIdx

open Idealize.ShloMosaic

/-- A `tpu.matmul` of `[m, k]` by `[n, k]`, both contracting axis 1, into the zero accumulator: entry `(a, b)` is
    `∑ c, A (a, c) * B (b, c)`. `w` is the dimension record's well-formedness, which a program states. -/
theorem matmul_rows_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.ValueIdx

end
-- ==== Proof.Score.lean ====
/-
  The quantity both programs compute, entry by entry.

  For a point x_r (a row of an 8192 × 1024 matrix) and a centre q with mean mu_q and scales s_q (rows of two
  4096 × 1024 matrices), the unnormalised Gaussian log-density  −½ Σ_d ((x_{r,d} − mu_{q,d}) / s_{q,d})²  is computed in
  its expanded form: with  w = 1/s²  and  a = mu · w,

      score(r, q) = −½ · ( (Σ_d x²_{r,d} · w_{q,d})  −  2 · (Σ_d x_{r,d} · a_{q,d})  +  mm_q ),      mm_q = Σ_d mu²_{q,d} · w_{q,d}.

  The function below takes the five arrays x², x, w, a and mm as they are, and fixes only how an entry is put together
  from them: two contractions over the 1024 columns, a difference, a sum and a scaling, each the exact operation on the
  extended reals. The two constants stay the float words of −0.5 and 2.0: both programs spell them with these words, so
  their values are never needed.
-/
import Idealize.ShloMosaic.PureOps.Ideal
import Idealize.ShloMosaic.Lib.ValueIdx

noncomputable section

namespace Cert.GaussianScore

open Idealize.ShloMosaic Idealize.ShloMosaic.ValueIdx

/-- Entry `(r, q)` of the result, from the squared points `xsq`, the points `x`, the inverse squared scales `w`, the
    scaled means `a` (rows indexed by the centre) and the centres' constant terms `mm`. -/
def score (xsq x : (⟨2, ![8192, 1024]⟩ : Shape).Idx → EReal) (w a : (⟨2, ![4096, 1024]⟩ : Shape).Idx → EReal)
    (mm : Fin 4096 → EReal) : (⟨2, ![8192, 4096]⟩ : Shape).Idx → EReal := fun i =>
  Ideal.ofBits .f32 0xBF000000#32 *
    (((∑ k : Fin 1024, xsq (ix2 (i 0) k) * w (ix2 (i 1) k))
        - Ideal.ofBits .f32 0x40000000#32 * (∑ k : Fin 1024, x (ix2 (i 0) k) * a (ix2 (i 1) k)))
      + mm (i 1))

/-- The entry at explicit coordinates. -/
theorem score_apply (xsq x : (⟨2, ![8192, 1024]⟩ : Shape).Idx → EReal) (w a : (⟨2, ![4096, 1024]⟩ : Shape).Idx → EReal)
    (mm : Fin 4096 → EReal) (r : Fin 8192) (s : Fin 4096) :
    score xsq x w a mm (ix2 r s)
      = Ideal.ofBits .f32 0xBF000000#32 *
          (((∑ k : Fin 1024, xsq (ix2 r k) * w (ix2 s k))
              - Ideal.ofBits .f32 0x40000000#32 * (∑ k : Fin 1024, x (ix2 r k) * a (ix2 s k)))
            + mm s) := rfl

end Cert.GaussianScore

end
-- ==== Proof.Tile.lean ====
/-
  One tile of the kernel, read at an entry.

  At a grid point the kernel body holds a 1024-row block of x and of x², a 512-row block of a = mu · w and of w = 1/s²,
  and the matching 512 entries of mm as a one-row matrix. It forms the two products "rows by rows" x² · wᵀ and x · aᵀ
  into zero accumulators, and stores  −½ · ((x²·wᵀ − 2 · (x·aᵀ)) + mm)  with mm repeated down the rows. At the exact
  extended reals a product into the zero accumulator is the plain sum over the contracted axis, so entry (p, q) of the
  tile is the score formula of row p of the x-blocks and row q of the centre blocks.
-/
import proofs.«141235_j32409823216060_2_alg».proof.Proof.Gen.KernelIdeal.Skeleton
import proofs.«141235_j32409823216060_2_alg».proof.Proof.LibMatmulRowsByRows
import proofs.«141235_j32409823216060_2_alg».proof.Proof.Score
import Idealize.ShloMosaic.Lib.Pipeline.Value
import Idealize.ShloMosaic.Lib.ValueIdx
import Idealize.ShloMosaic.Lib.ValueLayout

noncomputable section

namespace Cert.KernelIdeal.Tile

open Cert.KernelIdeal Cert.KernelIdeal.Gen Cert.KernelIdeal.Facts₀ Cert.GaussianScore Idealize.ShloMosaic Idealize.ShloMosaic.ValueIdx

/-- Entry `(p, q)` of the stored tile: the two contractions over the 1024 columns, combined as the score is. -/
theorem tile_apply (x xsq : Vec Ideal S1024x1024 .bf16) (a w : Vec Ideal S512x1024 .bf16) (mm : Vec Ideal S1x512 .f32)
    (p : Fin 1024) (q : Fin 512) :
    k0_pay1 (F := Ideal) x xsq a w mm (ix2 p q)
      = Ideal.ofBits .f32 0xBF000000#32 *
          (((∑ k : Fin 1024, xsq (ix2 p k) * w (ix2 q k))
              - Ideal.ofBits .f32 0x40000000#32 * (∑ k : Fin 1024, x (ix2 p k) * a (ix2 q k)))
            + mm (ix2 (0 : Fin 1) q)) := by
  unfold k0_pay1
  simp only [shapeCast_self]
  rw [mulf_apply, addf_apply, subf_apply, mulf_apply, broadcast_apply, broadcast_apply]
  have hsq : matmul (F := Ideal) (φ₁ := .bf16) (φ₂ := .bf16) dot_S1024x1024_S512x1024_S1024x512_1_1_0_0_n_n none xsq w
        (constant (F := Ideal) S1024x512 .f32 0x00000000#32) (ix2 p q) = ∑ k : Fin 1024, xsq (ix2 p k) * w (ix2 q k) :=
    matmul_rows_rows_apply (φ₁ := .bf16) (φ₂ := .bf16) Facts₀.dot_S1024x1024_S512x1024_S1024x512_1_1_0_0_n_n_wf none xsq w p q
  have hxa : matmul (F := Ideal) (φ₁ := .bf16) (φ₂ := .bf16) dot_S1024x1024_S512x1024_S1024x512_1_1_0_0_n_n none x a
        (constant (F := Ideal) S1024x512 .f32 0x00000000#32) (ix2 p q) = ∑ k : Fin 1024, x (ix2 p k) * a (ix2 q k) :=
    matmul_rows_rows_apply (φ₁ := .bf16) (φ₂ := .bf16) Facts₀.dot_S1024x1024_S512x1024_S1024x512_1_1_0_0_n_n_wf none x a p q
  rw [hsq, hxa, broadcastTo_1b_ab_apply mm Facts₀.broadcasts_S1x512_S1024x512 p q]
  rfl

/-- A tile entry is an entry of the score: when row `p` of the x-blocks is row `r` of x and x², row `q` of the centre
    blocks is row `s` of a and w, and the block's `q`-th centre term is `mm_s`, the tile's entry `(p, q)` is the score's
    entry `(r, s)`. -/
theorem tile_is_score (XSQ X : (⟨2, ![8192, 1024]⟩ : Shape).Idx → EReal) (W A : (⟨2, ![4096, 1024]⟩ : Shape).Idx → EReal)
    (MM : Fin 4096 → EReal)
    (x xsq : Vec Ideal S1024x1024 .bf16) (a w : Vec Ideal S512x1024 .bf16) (mm : Vec Ideal S1x512 .f32)
    (p : Fin 1024) (q : Fin 512) (r : Fin 8192) (s : Fin 4096)
    (hx : ∀ k : Fin 1024, x (ix2 p k) = X (ix2 r k)) (hxsq : ∀ k : Fin 1024, xsq (ix2 p k) = XSQ (ix2 r k))
    (ha : ∀ k : Fin 1024, a (ix2 q k) = A (ix2 s k)) (hw : ∀ k : Fin 1024, w (ix2 q k) = W (ix2 s k))
    (hmm : mm (ix2 (0 : Fin 1) q) = MM s) :
    k0_pay1 (F := Ideal) x xsq a w mm (ix2 p q) = score XSQ X W A MM (ix2 r s) := by
  rw [tile_apply, score_apply]
  simp only [hx, hxsq, ha, hw, hmm]

end Cert.KernelIdeal.Tile

end
-- ==== Proof.Entry.lean ====
/-
  The arrays the kernel's windows read, as the region finds them.

  Before the region the host forms, from the arguments x, mu and s:  w = 1/s²  (the quotient of the constant 1 by s · s),
  a = mu · w,  x² = x · x,  and the centre terms  mm_q = Σ_d (mu · mu)_{q,d} · w_{q,d}  as a row sum from zero, reshaped
  to a one-row matrix. The copies it narrows to a shorter float format are, at the exact extended reals, the arrays
  themselves: a change of format is the identity there. So the five windows stage x, x², a, w and mm, and the score of
  those five arrays is one function of the three arguments.
-/
import proofs.«141235_j32409823216060_2_alg».proof.Proof.Gen.KernelIdeal.Frame
import proofs.«141235_j32409823216060_2_alg».proof.Proof.Score
import Idealize.ShloMosaic.Lib.StableHlo.Run
import Idealize.ShloMosaic.Lib.ValueLayout

noncomputable section

namespace Cert.KernelIdeal.Entry

open Cert.KernelIdeal Cert.KernelIdeal.Gen Cert.GaussianScore
open Idealize.ShloMosaic Idealize.ShloMosaic.TcCoe Idealize.SL.Sem Idealize.ShloMosaic.StableHlo Idealize.ShloMosaic.ValueIdx

/-- The inverse squared scales `w = 1/s²`, as the host forms them. -/
def invSq (s : FVec Ideal S4096x1024 .f32) : FVec Ideal S4096x1024 .f32 :=
  Host.divf (broadcastInDim S4096x1024 ![] Facts₀.bcast_S_S4096x1024 (constant (F := Ideal) S_ .f32 0x3F800000#32)) (mulf s s)

/-- The centre terms `mm_q = Σ_d mu²_{q,d} · w_{q,d}`: the host's row sum from zero. -/
def centre (mu s : FVec Ideal S4096x1024 .f32) : FVec Ideal S4096 .f32 :=
  Host.reduceAdd (mulf (mulf mu mu) (invSq s)) (constant (F := Ideal) S_ .f32 0x00000000#32)
    Facts₀.reducesTo_S4096x1024_S4096_d1 Facts₀.h_S_

/-- The result as ONE function of the three argument arrays: the score of x², x, w, a = mu · w and the centre terms. -/
def result (x : FVec Ideal S8192x1024 .f32) (mu s : FVec Ideal S4096x1024 .f32) : S8192x4096.Idx → EReal :=
  score (mulf x x) x (invSq s) (mulf mu (invSq s)) (fun q => centre mu s (ix1 q))

variable (m : (ℓ : Loc nD τ sig) → Buf (Elt Ideal) ℓ)

/-- Window 0 stages x itself. -/
theorem x_at (c : Dev nD) :
    (V m c main_v10 : S8192x1024.Idx → EReal) = m ((c : Thread nD τ).loc main_arg0) := by
  dsimp only [Gen.V, Gen.hostOps0]; after_results; rfl

/-- Window 1 stages x². -/
theorem xsq_at (c : Dev nD) :
    (V m c main_v12 : S8192x1024.Idx → EReal)
      = mulf (F := Ideal) (s := S8192x1024) (φ := .f32) (m ((c : Thread nD τ).loc main_arg0)) (m ((c : Thread nD τ).loc main_arg0)) := by
  dsimp only [Gen.V, Gen.hostOps0]; after_results; rfl

/-- Window 2 stages a = mu · w. -/
theorem a_at (c : Dev nD) :
    (V m c main_v4 : S4096x1024.Idx → EReal)
      = mulf (F := Ideal) (s := S4096x1024) (φ := .f32) (m ((c : Thread nD τ).loc main_arg1)) (invSq (m ((c : Thread nD τ).loc main_arg2))) := by
  dsimp only [Gen.V, Gen.hostOps0]; after_results; rfl

/-- Window 3 stages w. -/
theorem w_at (c : Dev nD) :
    (V m c main_v5 : S4096x1024.Idx → EReal) = invSq (m ((c : Thread nD τ).loc main_arg2)) := by
  dsimp only [Gen.V, Gen.hostOps0]; after_results; rfl

/-- Window 4 stages the centre terms as a one-row matrix: entry `(0, q)` is `mm_q`. -/
theorem mm_at (c : Dev nD) (q : Fin 4096) :
    (V m c main_v9 : S1x4096.Idx → EReal) (ix2 (0 : Fin 1) q)
      = centre (m ((c : Thread nD τ).loc main_arg1)) (m ((c : Thread nD τ).loc main_arg2)) (ix1 q) := by
  have e : (V m c main_v9 : S1x4096.Idx → EReal)
      = shapeCast S1x4096 (centre (m ((c : Thread nD τ).loc main_arg1)) (m ((c : Thread nD τ).loc main_arg2)))
          Facts₀.shapeCasts_S4096_S1x4096 := by
    dsimp only [Gen.V, Gen.hostOps0]; after_results; rfl
  rw [e]
  exact shapeCast_a_1a_apply _ Facts₀.shapeCasts_S4096_S1x4096 (0 : Fin 1) q

/-- The score of the five staged arrays is the result function of the three arguments. -/
theorem staged_eq (c : Dev nD) :
    score (V m c main_v12) (V m c main_v10) (V m c main_v5) (V m c main_v4) (fun q => V m c main_v9 (ix2 (0 : Fin 1) q))
      = result (m ((c : Thread nD τ).loc main_arg0)) (m ((c : Thread nD τ).loc main_arg1)) (m ((c : Thread nD τ).loc main_arg2)) := by
  unfold result
  rw [xsq_at m c, x_at m c, w_at m c, a_at m c]
  exact congrArg (score _ _ _ _) (funext fun q => mm_at m c q)

end Cert.KernelIdeal.Entry

end
-- ==== Proof.Whole.lean ====
/-
  From tiles to the whole array.

  The grid has 8 × 8 points. Point t = (i, j) reads rows 1024·i … 1024·i + 1023 of x and x², rows 512·j … 512·j + 511 of
  a and w, entries 512·j … 512·j + 511 of the centre terms, and writes the 1024 × 512 tile at rows 1024·i …, columns
  512·j … of the result. Entry (p, q) of that tile is therefore the score's entry (1024·i + p, 512·j + q): what a point
  writes back is a block of ONE whole-array function, the score of the five staged arrays. The 64 tiles cover the
  8192 × 4096 result (entry (r, s) lies in the tile of the point (r / 1024, s / 512)), so after the run the result array
  is that score everywhere, and by the previous module the result function of the three arguments.
-/
import proofs.«141235_j32409823216060_2_alg».proof.Proof.Gen.KernelIdeal.Value
import proofs.«141235_j32409823216060_2_alg».proof.Proof.Tile
import proofs.«141235_j32409823216060_2_alg».proof.Proof.Entry

set_option maxRecDepth 16384

noncomputable section

namespace Cert.KernelIdeal.Whole

open Cert.KernelIdeal Cert.KernelIdeal.Gen Cert.KernelIdeal.Value Cert.GaussianScore
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The score of the five arrays the windows stage, as the region finds them. -/
abbrev staged (c : Dev nD) : S8192x4096.Idx → EReal :=
  score (V m c main_v12) (V m c main_v10) (V m c main_v5) (V m c main_v4) (fun q => V m c main_v9 (ix2 (0 : Fin 1) q))

/-- How the windows move over the grid: the x-blocks follow the tile's row block and the centre blocks its column block,
    each taking all 1024 columns; the centre terms follow the column block along their one row. -/
theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 7 ∧ win0_5.index t (1 : Fin 2) ≤ 7 :=
  (by decide +kernel : ∀ t : Fin grid0.N, _)

/-- Every one of the 8 × 8 tiles is some point's. -/
theorem block_onto : ∀ (b0 : Fin 8) (b1 : Fin 8), ∃ t : Fin cfg0.N, win0_5.index t = ![b0.val, b1.val] :=
  (by decide +kernel : ∀ (b0 : Fin 8) (b1 : Fin 8), ∃ t : Fin grid0.N, win0_5.index t = ![b0.val, b1.val])

/-- What point `t` writes back is block `t` of the staged score. -/
theorem flushed_eq (c : Dev nD) (t : Fin cfg0.N) :
    (dats m 0 c).flushed 5 t = ((cfg0.win 5).blk t).view.read (Elt Ideal) (staged m c) := by
  show (cfg0.win 5).cut (grid0.coords t) ((dats m 0 c).after 5 t) = _
  rw [after0_5]
  unfold out0_5
  rw [View.canon_unit_zero zero_offsets]
  simp only [View.ld_unit_zero (S := S1024x1024) zero_offsets, View.ld_unit_zero (S := S512x1024) zero_offsets,
    View.ld_unit_zero (S := S1x512) zero_offsets]
  obtain ⟨e00, e01, e10, e11, e20, e21, e30, e31, e40, e41, -, -⟩ := block_indices t
  funext j
  obtain ⟨p, q, rfl⟩ : ∃ (p : Fin 1024) (q : Fin 512), j = ix2 p q := ⟨j 0, j 1, eq_ix2 j⟩
  show k0_pay1 (F := Ideal) (iblk m c 0 t) (iblk m c 1 t) (iblk m c 2 t) (iblk m c 3 t) (iblk m c 4 t) (ix2 p q)
      = staged m c (((cfg0.win 5).blk t).view.emb (ix2 p q))
  rw [eq_ix2 (((cfg0.win 5).blk t).view.emb (ix2 p q))]
  refine Tile.tile_is_score (V m c main_v12) (V m c main_v10) (V m c main_v5) (V m c main_v4)
    (fun q => V m c main_v9 (ix2 (0 : Fin 1) q))
    (iblk m c 0 t) (iblk m c 1 t) (iblk m c 2 t) (iblk m c 3 t) (iblk m c 4 t) p q _ _ ?_ ?_ ?_ ?_ ?_
  · intro k
    show V m c main_v10 (((cfg0.win 0).blk t).view.emb (ix2 p k)) = V m c main_v10 _
    have h : ((cfg0.win 0).blk t).view.emb (ix2 p k) = ix2 ((((cfg0.win 5).blk t).view.emb (ix2 p q)) 0) k := by
      funext ax; apply Fin.ext
      match ax with
      | ⟨0, _⟩ => show win0_0.index t (0 : Fin 2) * 1024 + 1 * p.val = win0_5.index t (0 : Fin 2) * 1024 + 1 * p.val; omega
      | ⟨1, _⟩ => show win0_0.index t (1 : Fin 2) * 1024 + 1 * k.val = k.val; omega
    rw [h]; rfl
  · intro k
    show V m c main_v12 (((cfg0.win 1).blk t).view.emb (ix2 p k)) = V m c main_v12 _
    have h : ((cfg0.win 1).blk t).view.emb (ix2 p k) = ix2 ((((cfg0.win 5).blk t).view.emb (ix2 p q)) 0) k := by
      funext ax; apply Fin.ext
      match ax with
      | ⟨0, _⟩ => show win0_1.index t (0 : Fin 2) * 1024 + 1 * p.val = win0_5.index t (0 : Fin 2) * 1024 + 1 * p.val; omega
      | ⟨1, _⟩ => show win0_1.index t (1 : Fin 2) * 1024 + 1 * k.val = k.val; omega
    rw [h]; rfl
  · intro k
    show V m c main_v4 (((cfg0.win 2).blk t).view.emb (ix2 q k)) = V m c main_v4 _
    have h : ((cfg0.win 2).blk t).view.emb (ix2 q k) = ix2 ((((cfg0.win 5).blk t).view.emb (ix2 p q)) 1) k := by
      funext ax; apply Fin.ext
      match ax with
      | ⟨0, _⟩ => show win0_2.index t (0 : Fin 2) * 512 + 1 * q.val = win0_5.index t (1 : Fin 2) * 512 + 1 * q.val; omega
      | ⟨1, _⟩ => show win0_2.index t (1 : Fin 2) * 1024 + 1 * k.val = k.val; omega
    rw [h]; rfl
  · intro k
    show V m c main_v5 (((cfg0.win 3).blk t).view.emb (ix2 q k)) = V m c main_v5 _
    have h : ((cfg0.win 3).blk t).view.emb (ix2 q k) = ix2 ((((cfg0.win 5).blk t).view.emb (ix2 p q)) 1) k := by
      funext ax; apply Fin.ext
      match ax with
      | ⟨0, _⟩ => show win0_3.index t (0 : Fin 2) * 512 + 1 * q.val = win0_5.index t (1 : Fin 2) * 512 + 1 * q.val; omega
      | ⟨1, _⟩ => show win0_3.index t (1 : Fin 2) * 1024 + 1 * k.val = k.val; omega
    rw [h]; rfl
  · show V m c main_v9 (((cfg0.win 4).blk t).view.emb (ix2 (0 : Fin 1) q)) = V m c main_v9 _
    have h : ((cfg0.win 4).blk t).view.emb (ix2 (0 : Fin 1) q)
        = ix2 (0 : Fin 1) ((((cfg0.win 5).blk t).view.emb (ix2 p q)) 1) := by
      funext ax; apply Fin.ext
      match ax with
      | ⟨0, _⟩ => show win0_4.index t (0 : Fin 2) * 1 + 1 * 0 = 0; omega
      | ⟨1, _⟩ => show win0_4.index t (1 : Fin 2) * 512 + 1 * q.val = win0_5.index t (1 : Fin 2) * 512 + 1 * q.val; omega
    rw [h]; rfl

/-- An index of the result is in point `t`'s tile iff each coordinate is in the tile's range on its axis. -/
theorem mem_block (t : Fin cfg0.N) (i : S8192x4096.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v13).slice (win0_5.rect t)).set ↔ _
  rw [View.set_slice_whole, Rect.mem_set_unit]
  exact Iff.rfl

/-- The tiles cover the result: entry `(r, s)` is in the tile of the point with row block `r / 1024` and column block `s / 512`. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := block_onto ⟨(i 0).val / 1024, by omega⟩ ⟨(i 1).val / 512, by omega⟩
  have q0 : win0_5.index t (0 : Fin 2) = (i 0).val / 1024 := congrFun ht 0
  have q1 : win0_5.index t (1 : Fin 2) = (i 1).val / 512 := congrFun ht 1
  refine ⟨t, flush0_5 t, ?_⟩
  rw [mem_block]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 512 ≤ (i 1).val ∧ (i 1).val < win0_5.index t (1 : Fin 2) * 512 + 512
    omega

/-- The result array after the run is the staged score, everywhere. -/
theorem final (c : Dev nD) : (dats m 0 c).arrAt 5 cfg0.N = staged m c :=
  (dats m 0 c).arrAt_eq_of_cover 5 (staged m c) (fun t _ => flushed_eq m c t) covered

/-- The kernel's run: it terminates with the result array at the result function of the three argument arrays,
    and the arguments unchanged. -/
theorem run : θ_run defs (onTc (τ := τ) (main (F := Ideal))) ⟨m, fun _ => 0, ρ⟩ fun r => ∀ c : Dev nD,
      r.2.mem ((c : Thread nD τ).loc main_v13)
        = Entry.result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1.trans (final m c)).trans (Entry.staged_eq m c), (h c).2⟩)
    (Value.run_blocks m ρ)

end Cert.KernelIdeal.Whole

end
-- ==== Proof.Reference.lean ====
/-
  The reference, entry by entry, is the score.

  The reference forms w = 1/s², transposes w and a = mu · w, and takes two ordinary matrix products (x²) · wᵀ and x · aᵀ.
  Read at entry (r, q), a product against a transposed matrix contracts row r of the left factor with ROW q of the
  untransposed one, so each is the score's contraction over the 1024 columns; the centre term, a row sum of mu² · w, is
  repeated down the rows by two broadcasts. What is left is the same difference, sum and scaling by the same two float
  words, one entry at a time.
-/
import proofs.«141235_j32409823216060_2_alg».proof.Proof.Gen.ReferenceIdeal.Read
import proofs.«141235_j32409823216060_2_alg».proof.Proof.Score

noncomputable section

namespace Cert.ReferenceIdeal.RefValue

open Cert.ReferenceIdeal Cert.ReferenceIdeal.Read Cert.GaussianScore Idealize.ShloMosaic Idealize.ShloMosaic.ValueIdx

/-- Entry `(r, q)` of either product reads the left factor along row `r`. -/
theorem left_row5 (i : S8192x4096.Idx) (k : Fin 1024) : lidx_main_v5 i k = ix2 (i 0) k :=
  funext fun a => Fin.ext (by match a with | ⟨0, _⟩ => rfl | ⟨1, _⟩ => rfl)

theorem left_row8 (i : S8192x4096.Idx) (k : Fin 1024) : lidx_main_v8 i k = ix2 (i 0) k :=
  funext fun a => Fin.ext (by match a with | ⟨0, _⟩ => rfl | ⟨1, _⟩ => rfl)

/-- The right factor is a transpose: its entry `(k, q)` is entry `(q, k)` of the untransposed matrix, row `q`. -/
theorem right_row5 (i : S8192x4096.Idx) (k : Fin 1024) : idx_main_v4 (ridx_main_v5 i k) = ix2 (i 1) k :=
  funext fun a => Fin.ext (by match a with | ⟨0, _⟩ => rfl | ⟨1, _⟩ => rfl)

theorem right_row8 (i : S8192x4096.Idx) (k : Fin 1024) : idx_main_v7 (ridx_main_v8 i k) = ix2 (i 1) k :=
  funext fun a => Fin.ext (by match a with | ⟨0, _⟩ => rfl | ⟨1, _⟩ => rfl)

/-- The centre term broadcast to a row and then down the rows is read at the entry's column. -/
theorem centre_idx (i : S8192x4096.Idx) : idx_main_v15 (idx_main_v16 i) = ix1 (i 1) :=
  funext fun a => Fin.ext (by match a with | ⟨0, _⟩ => rfl)

/-- The reference's result is the score of x², x, w = 1/s², a = mu · w and the row sums of mu² · w. -/
theorem result_eq (x0 : (⟨S8192x1024, .f32⟩ : BufTy).Contents (Elt Ideal)) (x1 x2 : (⟨S4096x1024, .f32⟩ : BufTy).Contents (Elt Ideal)) :
    val_main_v19 (F := Ideal) x0 x1 x2
      = score (val_main_v3 (F := Ideal) x0) x0 (val_main_v2 (F := Ideal) x2) (val_main_v6 (F := Ideal) x1 x2)
          (fun q => val_main_v11 (F := Ideal) x1 x2 (ix1 q)) := by
  funext i
  rw [val_main_v19_apply, val_main_v18_apply, val_main_cst_2_apply, val_main_v17_apply, val_main_v14_apply,
    val_main_v5_apply, val_main_v13_apply, val_main_v12_apply, val_main_cst_1_apply, val_main_v8_apply,
    val_main_v16_apply, val_main_v15_apply]
  simp only [val_main_v4_apply, val_main_v7_apply, left_row5, left_row8, right_row5, right_row8, centre_idx]
  rfl

end Cert.ReferenceIdeal.RefValue

end
-- ==== Proof.lean ====
/-
  A Gaussian score in expanded form: the tiled kernel against the plain reference.

  For points x (8192 × 1024), means mu and scales s (4096 × 1024 each) both programs compute, for every point r and
  centre q,
      out(r, q) = −½ · ( (Σ_d x²_{r,d} · w_{q,d})  −  2 · (Σ_d x_{r,d} · a_{q,d})  +  Σ_d mu²_{q,d} · w_{q,d} ),
  with w = 1/s² and a = mu · w: the expansion of −½ Σ_d ((x − mu)/s)². The reference takes two whole matrix products
  against transposed matrices; the kernel forms w, a, x² and the centre sums on the host, narrows four of them to a
  shorter float format, and computes 1024 × 512 tiles of the result over an 8 × 8 grid, each from two products "rows
  by rows" into zero accumulators.

  At the exact extended reals a change of float format is the identity and a matrix product into a zero accumulator is
  the plain sum over the contracted axis, so both programs apply the same exact operations, in the same order, to the
  same numbers: no law of arithmetic is needed to join them, and the finiteness of the inputs is never used.
  The two sides meet in one function, `Cert.GaussianScore.score`, of the five arrays x², x, w, a and the centre sums:
    * the reference's last stage is that score, entry by entry (`Proof/Reference.lean`, over the generated read lemmas);
    * a tile's entry is the score's entry at the tile's place (`Proof/Tile.lean`), the five staged arrays are the host's
      terms of the arguments (`Proof/Entry.lean`), and the 64 tiles cover the result (`Proof/Whole.lean`, over the
      generated frame run with the result array named).
  The three frames are the generated runs; the idealization rewrote nothing, so there is nothing to preserve.
-/
import proofs.«141235_j32409823216060_2_alg».proof.Defs
import proofs.«141235_j32409823216060_2_alg».proof.Proof.Gen.Kernel
import proofs.«141235_j32409823216060_2_alg».proof.Proof.Gen.Kernel.Skeleton
import proofs.«141235_j32409823216060_2_alg».proof.Proof.Gen.Kernel.Launch
import proofs.«141235_j32409823216060_2_alg».proof.Proof.Gen.Kernel.Points
import proofs.«141235_j32409823216060_2_alg».proof.Proof.Gen.Kernel.Frame
import proofs.«141235_j32409823216060_2_alg».proof.Proof.Gen.KernelIdeal
import proofs.«141235_j32409823216060_2_alg».proof.Proof.Gen.KernelIdeal.Skeleton
import proofs.«141235_j32409823216060_2_alg».proof.Proof.Gen.KernelIdeal.Launch
import proofs.«141235_j32409823216060_2_alg».proof.Proof.Gen.KernelIdeal.Points
import proofs.«141235_j32409823216060_2_alg».proof.Proof.Gen.KernelIdeal.Frame
import proofs.«141235_j32409823216060_2_alg».proof.Proof.Gen.ReferenceIdeal
import proofs.«141235_j32409823216060_2_alg».proof.Proof.Gen.Pre_finite_inputs
import proofs.«141235_j32409823216060_2_alg».proof.Proof.Gen.KernelIdeal.Value
import proofs.«141235_j32409823216060_2_alg».proof.Proof.Gen.ReferenceIdeal.Run
import proofs.«141235_j32409823216060_2_alg».proof.Proof.Gen.ReferenceIdeal.Read
import Idealize.ShloMosaic.Adequacy
import Idealize.ShloMosaic.Init
import proofs.«141235_j32409823216060_2_alg».proof.Proof.Whole
import proofs.«141235_j32409823216060_2_alg».proof.Proof.Reference

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the kernel read at the exact extended reals. -/
theorem frame_ideal : Cert.frame_KernelIdeal := fun m ρ _ => Cert.KernelIdeal.Gen.frame m ρ

/-- The reference is host operations only: its frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The reference's result and the kernel's are ONE function of the three argument arrays: the reference's last stage
    is the score of x², x, w, a and the centre sums, and the kernel's result function is the score of the same five
    arrays, which the two programs' hosts form by the same operations. -/
theorem same_function (x0 : (⟨Cert.ReferenceIdeal.S8192x1024, .f32⟩ : BufTy).Contents (Elt Ideal))
    (x1 x2 : (⟨Cert.ReferenceIdeal.S4096x1024, .f32⟩ : BufTy).Contents (Elt Ideal)) :
    Cert.ReferenceIdeal.Read.val_main_v19 (F := Ideal) x0 x1 x2 = Cert.KernelIdeal.Entry.result x0 x1 x2 :=
  (Cert.ReferenceIdeal.RefValue.result_eq x0 x1 x2).trans rfl

/-- From memories that agree on x, mu and s, both programs end with the result array at the same function of them. -/
theorem algebraic : Cert.algebraic_KernelIdeal_ReferenceIdeal := by
  intro m ρ m' ρ' _ hagree
  refine ⟨fun c => Cert.KernelIdeal.Entry.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v19_eq _ _ _).trans (same_function _ _ _)

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
